-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.sign_bit.Statement Cert.KernelIdeal.S256x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S2048x1024 : Shape := ⟨2, ![2048, 1024]⟩
abbrev S1024x1024 : Shape := ⟨2, ![1024, 1024]⟩
abbrev S1024x1 : Shape := ⟨2, ![1024, 1]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn_part2 {F : FTy → Type} [FloatOps F] (main_arg7 : FVec F S2048x1024 .f32) (main_arg8 : FVec F S1024x1 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024x1 .f32 := Host.absf main_arg8
  let main_cst_14 : FVec F S_ .f32 := constant S_ .f32 0x7F800000#32
  let main_v40 : FVec F S1024x1 .f32 := broadcastInDim S1024x1 ![] bcast_S_S1024x1 main_cst_14
  let main_v41 : IVec S1024x1 1 := cmpf .olt main_v39 main_v40
  let main_c_15 : IVec S_ 1 := constantI S_ 1 1#1
  let main_v42 : IVec S_ 1 := (fun x v => Host.reduce IntOp.andi x v reducesTo_S1024x1_S_d0_1 h_S_) main_v41 main_c_15
  let main_v43 : IVec S_ 1 := andi main_v38 main_v42
  main_v43

def fn_part1 {F : FTy → Type} [FloatOps F] (main_arg4 : FVec F S1024x1024 .f32) (main_arg5 : FVec F S1024x1 .f32) (main_arg6 : FVec F S2048x1024 .f32) (main_arg7 : FVec F S2048x1024 .f32) (main_arg8 : FVec F S1024x1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1 .f32 := Host.absf main_arg5
  let main_cst_8 : FVec F S_ .f32 := constant S_ .f32 0x7F800000#32
  let main_v25 : FVec F S1024x1 .f32 := broadcastInDim S1024x1 ![] bcast_S_S1024x1 main_cst_8
  let main_v26 : IVec S1024x1 1 := cmpf .olt main_v24 main_v25
  let main_c_9 : IVec S_ 1 := constantI S_ 1 1#1
  let main_v27 : IVec S_ 1 := (fun x v => Host.reduce IntOp.andi x v reducesTo_S1024x1_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_v33

def fn {F : FTy → Type} [FloatOps F] (main_arg0 : FVec F S512x2048 .f32) (main_arg1 : FVec F S2048x1024 .f32) (main_arg2 : FVec F S2048x1024 .f32) (main_arg3 : FVec F S1024x1024 .f32) (main_arg4 : FVec F S1024x1024 .f32) (main_arg5 : FVec F S1024x1 .f32) (main_arg6 : FVec F S2048x1024 .f32) (main_arg7 : FVec F S2048x1024 .f32) (main_arg8 : FVec F S1024x1 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S512x2048 : Shape := ⟨2, ![512, 2048]⟩
abbrev S2048x1024 : Shape := ⟨2, ![2048, 1024]⟩
abbrev S1024x1024 : Shape := ⟨2, ![1024, 1024]⟩
abbrev S1024x1 : Shape := ⟨2, ![1024, 1]⟩
abbrev S1x1024 : Shape := ⟨2, ![1, 1024]⟩
abbrev S256x2048 : Shape := ⟨2, ![256, 2048]⟩
abbrev S256x1024 : Shape := ⟨2, ![256, 1024]⟩

abbrev nBuf : Space → Nat
  | .hbm => 22
  | .vmem => 10
  | .smem => 0
  | _ => 0

abbrev bufTy : (tb : Table) → Fin (tcTables nBuf tb) → BufTy
  | .hbm, ⟨0, _⟩ => ⟨S512x2048, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1, .f32⟩
  | .hbm, ⟨6, _⟩ => ⟨S2048x1024, .f32⟩
  | .hbm, ⟨7, _⟩ => ⟨S2048x1024, .f32⟩
  | .hbm, ⟨8, _⟩ => ⟨S1024x1, .f32⟩
  | .hbm, ⟨9, _⟩ => ⟨S1024x1024, .f32⟩
  | .hbm, ⟨10, _⟩ => ⟨S1024x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S512x2048, .bf16⟩
  | .hbm, ⟨15, _⟩ => ⟨S2048x1024, .bf16⟩
  | .hbm, ⟨16, _⟩ => ⟨S2048x1024, .bf16⟩
  | .hbm, ⟨17, _⟩ => ⟨S1024x1024, .bf16⟩
  | .hbm, ⟨18, _⟩ => ⟨S1024x1024, .bf16⟩
  | .hbm, ⟨19, _⟩ => ⟨S2048x1024, .bf16⟩
  | .hbm, ⟨20, _⟩ => ⟨S2048x1024, .bf16⟩
  | .hbm, ⟨21, _⟩ => ⟨S512x2048, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S256x2048, .f32⟩
  | .local _ .vmem, ⟨9, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [BitOps F]

abbrev grid0 : Pipeline.Grid := ⟨1, ![2], ![false]⟩

@[reducible] def k0_t1_loop : Scf.Loop 32 :=
  let c0_i32 : BitVec 32 := 0#32
  let c5_i32 : BitVec 32 := 5#32
  let v17 : BitVec 32 := Scalar.addi c0_i32 c5_i32
  let c1_i32 : BitVec 32 := 1#32
  ⟨c0_i32, v17, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S1024x1_S1024x1024_0_1 : S1024x1.BroadcastsInDim S1024x1024 (![0, 1] : Fin 2 → Fin S1024x1024.rank)
  shapeCasts_S1024x1_S1x1024 : S1024x1.ShapeCasts S1x1024
  bcast_S1x1024_S2048x1024_0_1 : S1x1024.BroadcastsInDim S2048x1024 (![0, 1] : Fin 2 → Fin S2048x1024.rank)
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S256x2048_S2048x1024_S256x1024_1_0_0_1_n_n_wf : DotDims.WF S256x2048 S2048x1024 S256x1024 [1] [0] [0] [1] [] []
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S512x2048.size a
  hwx0_0 : ∀ i : grid0.Coords, EltTy.bits .bf16 = 32 ∨ (Rect.block (s := S512x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S2048x1024.size a
  hwx0_5 : ∀ i : grid0.Coords, EltTy.bits .bf16 = 32 ∨ (Rect.block (s := S2048x1024) S2048x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S2048x1024.size a
  hwx0_6 : ∀ i : grid0.Coords, EltTy.bits .bf16 = 32 ∨ (Rect.block (s := S2048x1024) S2048x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S512x2048.size a
  hwx0_7 : ∀ i : grid0.Coords, EltTy.bits .f32 = 32 ∨ (Rect.block (s := S512x2048) S256x2048.size (cc0_transform_7 i) (hinb0_7 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_v5) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2048x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S2048x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x2048 : Shape := ⟨2, ![512, 2048]⟩
abbrev S2048x1024 : Shape := ⟨2, ![2048, 1024]⟩
abbrev S1024x1024 : Shape := ⟨2, ![1024, 1024]⟩
abbrev S1024x1 : Shape := ⟨2, ![1024, 1]⟩
abbrev S512x1024 : Shape := ⟨2, ![512, 1024]⟩
abbrev S1x1024 : Shape := ⟨2, ![1, 1024]⟩
abbrev S1024x2048 : Shape := ⟨2, ![1024, 2048]⟩
abbrev S_ : Shape := ⟨0, ![]⟩

abbrev nBuf : Space → Nat
  | .hbm => 95
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1, .f32⟩
  | .hbm, ⟨6, _⟩ => ⟨S2048x1024, .f32⟩
  | .hbm, ⟨7, _⟩ => ⟨S2048x1024, .f32⟩
  | .hbm, ⟨8, _⟩ => ⟨S1024x1, .f32⟩
  | .hbm, ⟨9, _⟩ => ⟨S512x1024, .f32⟩
  | .hbm, ⟨10, _⟩ => ⟨S1024x1024, .f32⟩
  | .hbm, ⟨11, _⟩ => ⟨S512x1024, .f32⟩
  | .hbm, ⟨12, _⟩ => ⟨S1x1024, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S1024x2048, .f32⟩
  | .hbm, ⟨17, _⟩ => ⟨S512x2048, .f32⟩
  | .hbm, ⟨18, _⟩ => ⟨S512x1024, .f32⟩
  | .hbm, ⟨19, _⟩ => ⟨S512x1024, .f32⟩
  | .hbm, ⟨20, _⟩ => ⟨S1024x2048, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S512x1024, .f32⟩
  | .hbm, ⟨33, _⟩ => ⟨S512x1024, .f32⟩
  | .hbm, ⟨34, _⟩ => ⟨S1024x2048, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S_, .f32⟩
  | .hbm, ⟨40, _⟩ => ⟨S512x2048, .f32⟩
  | .hbm, ⟨41, _⟩ => ⟨S512x2048, .f32⟩
  | .hbm, ⟨42, _⟩ => ⟨S_, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S512x1024, .f32⟩
  | .hbm, ⟨47, _⟩ => ⟨S512x1024, .f32⟩
  | .hbm, ⟨48, _⟩ => ⟨S1024x2048, .f32⟩
  | .hbm, ⟨49, _⟩ => ⟨S512x2048, .f32⟩
  | .hbm, ⟨50, _⟩ => ⟨S512x2048, .f32⟩
  | .hbm, ⟨51, _⟩ => ⟨S512x2048, .f32⟩
  | .hbm, ⟨52, _⟩ => ⟨S512x2048, .f32⟩
  | .hbm, ⟨53, _⟩ => ⟨S_, .f32⟩
  | .hbm, ⟨54, _⟩ => ⟨S512x2048, .f32⟩
  | .hbm, ⟨55, _⟩ => ⟨S512x2048, .f32⟩
  | .hbm, ⟨56, _⟩ => ⟨S_, .f32⟩
  | .hbm, ⟨57, _⟩ => ⟨S512x2048, .f32⟩
  | .hbm, ⟨58, _⟩ => ⟨S512x2048, .f32⟩
  | .hbm, ⟨59, _⟩ => ⟨S512x2048, .f32⟩
  | .hbm, ⟨60, _⟩ => ⟨S512x1024, .f32⟩
  | .hbm, ⟨61, _⟩ => ⟨S512x1024, .f32⟩
  | .hbm, ⟨62, _⟩ => ⟨S1024x2048, .f32⟩
  | .hbm, ⟨63, _⟩ => ⟨S512x2048, .f32⟩
  | .hbm, ⟨64, _⟩ => ⟨S512x2048, .f32⟩
  | .hbm, ⟨65, _⟩ => ⟨S512x2048, .f32⟩
  | .hbm, ⟨66, _⟩ => ⟨S512x2048, .f32⟩
  | .hbm, ⟨67, _⟩ => ⟨S_, .f32⟩
  | .hbm, ⟨68, _⟩ => ⟨S512x2048, .f32⟩
  | .hbm, ⟨69, _⟩ => ⟨S512x2048, .f32⟩
  | .hbm, ⟨70, _⟩ => ⟨S_, .f32⟩
  | .hbm, ⟨71, _⟩ => ⟨S512x2048, .f32⟩
  | .hbm, ⟨72, _⟩ => ⟨S512x2048, .f32⟩
  | .hbm, ⟨73, _⟩ => ⟨S512x2048, .f32⟩
  | .hbm, ⟨74, _⟩ => ⟨S512x1024, .f32⟩
  | .hbm, ⟨75, _⟩ => ⟨S512x1024, .f32⟩
  | .hbm, ⟨76, _⟩ => ⟨S1024x2048, .f32⟩
  | .hbm, ⟨77, _⟩ => ⟨S512x2048, .f32⟩
  | .hbm, ⟨78, _⟩ => ⟨S512x2048, .f32⟩
  | .hbm, ⟨79, _⟩ => ⟨S512x2048, .f32⟩
  | .hbm, ⟨80, _⟩ => ⟨S512x2048, .f32⟩
  | .hbm, ⟨81, _⟩ => ⟨S_, .f32⟩
  | .hbm, ⟨82, _⟩ => ⟨S512x2048, .f32⟩
  | .hbm, ⟨83, _⟩ => ⟨S512x2048, .f32⟩
  | .hbm, ⟨84, _⟩ => ⟨S_, .f32⟩
  | .hbm, ⟨85, _⟩ => ⟨S512x2048, .f32⟩
  | .hbm, ⟨86, _⟩ => ⟨S512x2048, .f32⟩
  | .hbm, ⟨87, _⟩ => ⟨S512x2048, .f32⟩
  | .hbm, ⟨88, _⟩ => ⟨S512x1024, .f32⟩
  | .hbm, ⟨89, _⟩ => ⟨S1x1024, .f32⟩
  | .hbm, ⟨90, _⟩ => ⟨S512x1024, .f32⟩
  | .hbm, ⟨91, _⟩ => ⟨S512x1024, .f32⟩
  | .hbm, ⟨92, _⟩ => ⟨S1024x2048, .f32⟩
  | .hbm, ⟨93, _⟩ => ⟨S512x2048, .f32⟩
  | .hbm, ⟨94, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_7 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S1024x1_S1x1024_1_0 : S1024x1.Transposes [1, 0] S1x1024
  bcast_S1x1024_S512x1024_0_1 : S1x1024.BroadcastsInDim S512x1024 (![0, 1] : Fin 2 → Fin S512x1024.rank)
  transposes_S2048x1024_S1024x2048_1_0 : S2048x1024.Transposes [1, 0] S1024x2048
  bcast_S_S512x2048 : S_.BroadcastsInDim S512x2048 (![] : Fin 0 → Fin S512x2048.rank)
  dot_S512x2048_S2048x1024_S512x1024_1_0_0_1_n_n_wf : DotDims.WF S512x2048 S2048x1024 S512x1024 [1] [0] [0] [1] [] []
  dot_S512x1024_S1024x1024_S512x1024_1_0_0_1_n_n_wf : DotDims.WF S512x1024 S1024x1024 S512x1024 [1] [0] [0] [1] [] []
  dot_S512x1024_S1024x2048_S512x2048_1_0_0_1_n_n_wf : DotDims.WF S512x1024 S1024x2048 S512x2048 [1] [0] [0] [1] [] []

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

class Facts : Prop extends Facts₀ where

variable [Facts]
-- ==== Proof.Frames.lean ====
/-
  The three frame claims: each program runs to the end without a fault and leaves its argument arrays as it found them.
  For the two kernel programs this is the frame run of the one launched region; the reference has no region, and its frame
  is its run with the result forgotten.
-/
import proofs.«154523_j76647986364863_2_alg».proof.Defs
import proofs.«154523_j76647986364863_2_alg».proof.Proof.Gen.Kernel.Frame
import proofs.«154523_j76647986364863_2_alg».proof.Proof.Gen.KernelIdeal.Value
import proofs.«154523_j76647986364863_2_alg».proof.Proof.Gen.ReferenceIdeal.Run
import proofs.«154523_j76647986364863_2_alg».proof.Proof.Gen.Pre_finite_inputs

noncomputable section

open Idealize.ShloMosaic Idealize.ShloMosaic.TcCoe Idealize.SL.Sem

namespace Cert.Proof.Frames

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.LibBilinear.lean ====
/-
  The bilinear score  (a · q) · bᵀ  read index by index over the extended reals.

  With  a : M×K,  q : K×K,  b : N×K  the score at (i, n) is  ∑ k, (∑ j, a (i, j) · q (j, k)) · b (n, k).
  Entry (i, n) reads row i of a, all of q, and row n of b only.  Hence a tile of the score — rows taken from a
  block of rows of a, columns from a block of rows of b — is the score of the two blocks, and a score computed tile
  by tile over both axes is the one whole score.
-/
import proofs.«154523_j76647986364863_2_alg».proof.Proof.LibPlainDot
import Idealize.ShloMosaic.Lib.ValueLayout

noncomputable section

namespace Cert.Lib.Bilinear

open Idealize.ShloMosaic Idealize.ShloMosaic.ValueIdx Cert.Lib.PlainDot

/-- The transposed array: entry (k, n) is the operand's entry (n, k). -/
def tr {N K : Nat} (b : (⟨2, ![N, K]⟩ : Shape).Idx → EReal) : (⟨2, ![K, N]⟩ : Shape).Idx → EReal :=
  fun j => b (ix2 (j 1) (j 0))

theorem tr_apply {N K : Nat} (b : (⟨2, ![N, K]⟩ : Shape).Idx → EReal) (k : Fin K) (n : Fin N) :
    tr b (ix2 k n) = b (ix2 n k) := rfl

/-- The layout operation that swaps the two axes of a matrix is `tr`. -/
theorem transpose_eq_tr {N K : Nat} (b : (⟨2, ![N, K]⟩ : Shape).Idx → EReal)
    (h : (⟨2, ![N, K]⟩ : Shape).Transposes [1, 0] ⟨2, ![K, N]⟩) :
    transpose ⟨2, ![K, N]⟩ [1, 0] b h = tr b :=
  funext fun j =>
    calc transpose ⟨2, ![K, N]⟩ [1, 0] b h j
        = transpose ⟨2, ![K, N]⟩ [1, 0] b h (ix2 (j 0) (j 1)) := congrArg _ (eq_ix2 j)
      _ = b (ix2 (j 1) (j 0)) := transpose_ix2_apply b h (j 0) (j 1)

/-- Locality of the product in both operands: entry `y` of a product of a block of rows of the left operand with a
    block of columns of the right operand is entry `z` of the whole product, when row `y 0` of the left block is row
    `z 0` of the whole and column `y 1` of the right block is column `z 1` of the whole. -/
theorem mm_block2 {M M' K N N' : Nat} (l : (⟨2, ![M, K]⟩ : Shape).Idx → EReal) (l' : (⟨2, ![M', K]⟩ : Shape).Idx → EReal)
    (r : (⟨2, ![K, N]⟩ : Shape).Idx → EReal) (r' : (⟨2, ![K, N']⟩ : Shape).Idx → EReal)
    (y : (⟨2, ![M', N']⟩ : Shape).Idx) (z : (⟨2, ![M, N]⟩ : Shape).Idx)
    (hl : ∀ k : Fin K, l' (ix2 (y 0) k) = l (ix2 (z 0) k)) (hr : ∀ k : Fin K, r' (ix2 k (y 1)) = r (ix2 k (z 1))) :
    mm l' r' y = mm l r z := by
  unfold mm
  exact Finset.sum_congr rfl fun k _ => by rw [hl k, hr k]

/-- The bilinear score (a · q) · bᵀ. -/
def score {M K N : Nat} (a : (⟨2, ![M, K]⟩ : Shape).Idx → EReal) (q : (⟨2, ![K, K]⟩ : Shape).Idx → EReal)
    (b : (⟨2, ![N, K]⟩ : Shape).Idx → EReal) : (⟨2, ![M, N]⟩ : Shape).Idx → EReal :=
  mm (mm a q) (tr b)

/-- A tile of the score is the score of the two row blocks. -/
theorem score_block {M M' K N N' : Nat} (a : (⟨2, ![M, K]⟩ : Shape).Idx → EReal) (a' : (⟨2, ![M', K]⟩ : Shape).Idx → EReal)
    (q : (⟨2, ![K, K]⟩ : Shape).Idx → EReal) (b : (⟨2, ![N, K]⟩ : Shape).Idx → EReal) (b' : (⟨2, ![N', K]⟩ : Shape).Idx → EReal)
    (y : (⟨2, ![M', N']⟩ : Shape).Idx) (z : (⟨2, ![M, N]⟩ : Shape).Idx)
    (ha : ∀ k : Fin K, a' (ix2 (y 0) k) = a (ix2 (z 0) k)) (hb : ∀ k : Fin K, b' (ix2 (y 1) k) = b (ix2 (z 1) k)) :
    score a' q b' y = score a q b z :=
  mm_block2 (mm a q) (mm a' q) (tr b) (tr b') y z (fun k => mm_row a a' q (z 0) (y 0) k ha) (fun k => hb k)

end Cert.Lib.Bilinear

end
-- ==== Proof.LibTransposedDot.lean ====
/-
  A matrix product whose right operand is contracted on its LAST axis, read index by index over the extended reals.

  For the dimension numbers of an `M×K` by `N×K` product (contract the second axis of both operands; no batch axis)
  the accelerator's matrix product into a zero accumulator and the host's `dot_general` are, at the exact
  (extended-real) values, the function
      (i, j) ↦ ∑ k < K, l (i, k) · r (j, k),
  that is, the plain product of `l` with the transposed right operand. A program that spells `a · bᵀ` by these
  dimension numbers and one that transposes `b` first and multiplies plainly compute one function.
-/
import proofs.«154523_j76647986364863_2_alg».proof.Proof.LibBilinear

noncomputable section

namespace Cert.Lib.TransposedDot

open Idealize.ShloMosaic Idealize.ShloMosaic.ValueIdx Cert.Lib.PlainDot Cert.Lib.Bilinear

/-- The sum over the one-axis contraction index of these dimension numbers is the sum over `k < K` of the left
    operand at `(i, k)` times the right operand at `(j, k)`: the plain product with the transposed right operand. -/
theorem contr_sum (M K N : Nat) (l : (⟨2, ![M, K]⟩ : Shape).Idx → EReal) (r : (⟨2, ![N, K]⟩ : Shape).Idx → EReal)
    (j : (⟨2, ![M, N]⟩ : Shape).Idx) :
    ∑ q : (DotDims.transposedRhs M K N).contr.Idx,
        l ((DotDims.transposedRhs M K N).lhsIdx j q) * r ((DotDims.transposedRhs M K N).rhsIdx j q)
      = mm l (tr r) j := by
  unfold mm
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k)
      = ix2 (j 0) k :=
    funext fun a => Fin.ext (by
      match a with
      | ⟨0, _⟩ => rfl
      | ⟨1, _⟩ => exact ((DotDims.transposedRhs M K N).lhsIdx_val_of_single (cl := 1) rfl j _).trans hk)
  have er : (DotDims.transposedRhs M K N).rhsIdx j ((contrEquiv1 (DotDims.transposedRhs M K N) K rfl rfl).symm k)
      = ix2 (j 1) k :=
    funext fun a => Fin.ext (by
      match a with
      | ⟨0, _⟩ => rfl
      | ⟨1, _⟩ => exact ((DotDims.transposedRhs M K N).rhsIdx_val_of_single (cr := 1) rfl j _).trans hk)
  rw [el, er]
  rfl

/-- The accelerator's matrix product into the zero accumulator with the right operand contracted on its last axis, at
    the exact values, is the plain product with the transposed right operand. -/
theorem matmul_zero {M K N : Nat} {φ₁ φ₂ : FTy} (prec : Option ContractPrecision)
    (l : FVec Ideal ⟨2, ![M, K]⟩ φ₁) (r : FVec Ideal ⟨2, ![N, K]⟩ φ₂) :
    matmul (F := Ideal) (DotDims.transposedRhs M K N) prec l r (constant (F := Ideal) ⟨2, ![M, N]⟩ .f32 0x00000000#32)
      = mm l (tr r) :=
  funext fun j => (Ideal.matmul_constant_zero_apply (DotDims.transposedRhs M K N) prec l r j).trans (contr_sum M K N l r j)

/-- The host's `dot_general` with the right operand contracted on its last axis, at the exact values, likewise. -/
theorem dotGeneral {M K N : Nat} {φ₁ φ₂ : FTy} (prec : Option ContractPrecision)
    (l : FVec Ideal ⟨2, ![M, K]⟩ φ₁) (r : FVec Ideal ⟨2, ![N, K]⟩ φ₂) :
    Host.dotGeneral (F := Ideal) (DotDims.transposedRhs M K N) prec l r = mm l (tr r) :=
  funext fun j => (Ideal.dotGeneral_apply (DotDims.transposedRhs M K N) prec .single l r j).trans (contr_sum M K N l r j)

end Cert.Lib.TransposedDot

end
-- ==== Proof.SoftThreshold.lean ====
/-
  Soft thresholding at level one on the extended reals:  shrink x = sign x · max (|x| − 1, 0).

  Two programs spell the sign differently. One applies the three-valued sign (−1 below zero, 0 at zero, 1 above, the
  infinities included). The other takes ±1 by the comparison `x < 0` wherever `|x| > 0` and returns `x` itself
  elsewhere; `|x| > 0` fails only at `x = 0`, where `x` is the sign's value 0. So the two spellings are one function on
  every extended real, and so are the two spellings of `shrink` built on them.
-/
import Idealize.ShloMosaic.PureOps.IdealRules
import Idealize.ShloMosaic.PureOps.Ideal.Laws
import Idealize.ShloMosaic.Lib.ValueIdx
import Idealize.ShloMosaic.Lib.IdealHost

noncomputable section

namespace Cert.SoftThreshold

open Idealize.ShloMosaic Idealize.ShloMosaic.ValueIdx

/-- Soft thresholding at level one. The level and the floor are kept as the float words both programs print. -/
def shrink (x : EReal) : EReal :=
  Ideal.sign x * max (max x (-x) - Ideal.ofBits .f32 0x3F800000#32) (Ideal.ofBits .f32 0x00000000#32)

/-- The sign spelled by comparisons: ±1 by `x < 0` where `|x| > 0`, and `x` where `|x| = 0`. -/
theorem sign_by_comparisons (x : EReal) :
    Scalar.select (Ideal.cmp .ogt (max x (-x)) (Ideal.ofBits .f32 0x00000000#32))
        (Scalar.select (Ideal.cmp .olt x (Ideal.ofBits .f32 0x00000000#32))
          (Ideal.ofBits .f32 0xBF800000#32) (Ideal.ofBits .f32 0x3F800000#32)) x
      = Ideal.sign x := by
  have h0 : Ideal.ofBits .f32 0x00000000#32 = 0 := Ideal.ofBits_zero_f32
  have h1 : Ideal.ofBits .f32 0x3F800000#32 = 1 := IdealRules.sign_bit.ideal_onePat .f32
  have hn : Ideal.ofBits .f32 0xBF800000#32 = -1 := IdealRules.sign_bit.ideal_negOnePat .f32
  rw [h0, h1, hn]
  induction x using EReal.rec with
  | bot => rw [Ideal.sign_bot]; simp [Scalar.select, Ideal.cmp]
  | top => rw [Ideal.sign_top]; simp [Scalar.select, Ideal.cmp]
  | coe r =>
    rw [Ideal.sign_coe]
    rcases lt_trichotomy r 0 with h | h | h
    · have hpos : (0 : EReal) < max (r : EReal) (-(r : EReal)) :=
        lt_max_of_lt_right (by rw [← EReal.coe_neg]; exact EReal.coe_pos.mpr (by linarith))
      have hlt : (r : EReal) < 0 := EReal.coe_neg'.mpr h
      rw [sign_neg h]
      simp [Scalar.select, Ideal.cmp, hpos, hlt]
    · subst h
      rw [sign_zero]
      simp [Scalar.select, Ideal.cmp]
    · have hpos : (0 : EReal) < max (r : EReal) (-(r : EReal)) :=
        lt_max_of_lt_left (EReal.coe_pos.mpr h)
      have hlt : ¬ (r : EReal) < 0 := not_lt.mpr (EReal.coe_nonneg.mpr h.le)
      rw [sign_pos h]
      simp [Scalar.select, Ideal.cmp, hpos, hlt]

/-- The accelerator's spelling of `shrink` on a vector, entry by entry. -/
theorem shrink_by_comparisons {s : Shape} (v : FVec Ideal s .f32) (i : s.Idx) :
    mulf (select (cmpf .ogt (absf v) (broadcast s (Scalar.ofBits (F := Ideal) .f32 0x00000000#32)))
          (select (cmpf .olt v (constant (F := Ideal) s .f32 0x00000000#32)) (constant (F := Ideal) s .f32 0xBF800000#32)
            (constant (F := Ideal) s .f32 0x3F800000#32)) v)
        (maximumf (subf (absf v) (broadcast s (Scalar.ofBits (F := Ideal) .f32 0x3F800000#32)))
          (broadcast s (Scalar.ofBits (F := Ideal) .f32 0x00000000#32))) i
      = shrink (v i) := by
  unfold shrink
  rw [← sign_by_comparisons (v i)]
  rfl

/-- The host's spelling of `shrink` on an array, entry by entry. -/
theorem shrink_by_sign {s : Shape} (h : (⟨0, ![]⟩ : Shape).BroadcastsInDim s ![]) (v : FVec Ideal s .f32) (i : s.Idx) :
    mulf (Host.sign v)
        (maximumf (subf (Host.absf v) (broadcastInDim s ![] h (constant (F := Ideal) ⟨0, ![]⟩ .f32 0x3F800000#32)))
          (broadcastInDim s ![] h (constant (F := Ideal) ⟨0, ![]⟩ .f32 0x00000000#32))) i
      = shrink (v i) := by
  have e1 := broadcastInDim_scalar_apply h (constant (F := Ideal) ⟨0, ![]⟩ .f32 0x3F800000#32) i
  have e0 := broadcastInDim_scalar_apply h (constant (F := Ideal) ⟨0, ![]⟩ .f32 0x00000000#32) i
  show Ideal.sign (v i) * max (max (v i) (-(v i)) - broadcastInDim s ![] h (constant (F := Ideal) ⟨0, ![]⟩ .f32 0x3F800000#32) i)
      (broadcastInDim s ![] h (constant (F := Ideal) ⟨0, ![]⟩ .f32 0x00000000#32) i) = _
  rw [e1, e0]
  rfl

end Cert.SoftThreshold

end
-- ==== Proof.Recurrence.lean ====
/-
  The function both programs compute, written once for any number `B` of rows.

  With the coefficient vector  y : B×1024  of a row fixed, the code  z : B×2048  is improved five times by
      z ↦ shrink (z + (y − z · Ve) · Veᵀ)        (a gradient step on ‖y − z·Ve‖² followed by soft thresholding),
  starting from  z₀ = y · Veᵀ ; the result is the fifth iterate plus a second, low-rank term (`core`).
  Every operation acts on each row separately: row `p` of the result reads row `p` of `y`, of the low-rank term, and
  hence of the input `x`, only. So the result on a block of rows of `x` is that block of rows of the result on all of
  `x` (`RowsAgree`), which is what lets a computation tiled over the rows be compared with an untiled one.

  The two programs differ in where a per-component scale sits. One multiplies the coefficients by the scale and then
  by the value table, `(a · diag s) · V`; the other folds the scale into the table first, `a · (diag s · V)`. Entry by
  entry these are  ∑ₖ (a·s)·v  and  ∑ₖ a·(s·v) : equal term by term by associativity (and commutativity, for the
  transposed table) of the product of extended reals. No distributivity and no cancellation is used, so nothing here
  needs the entries to be finite.
-/
import proofs.«154523_j76647986364863_2_alg».proof.Proof.LibBilinear
import proofs.«154523_j76647986364863_2_alg».proof.Proof.SoftThreshold

noncomputable section

namespace Cert.Recurrence

open Idealize.ShloMosaic Idealize.ShloMosaic.ValueIdx Cert.Lib.PlainDot Cert.Lib.Bilinear Cert.SoftThreshold

/-- An `a × b` array of extended reals. -/
abbrev Mat (a b : Nat) := (⟨2, ![a, b]⟩ : Shape).Idx → EReal

/-! ## A per-component scale, on the coefficients or on the table -/

/-- Column `k` of `x` multiplied by `s k`:  x · diag s. -/
def scaleCols {a b : Nat} (x : Mat a b) (s : Mat b 1) : Mat a b := fun i => x i * s (ix2 (i 1) 0)

/-- Row `k` of `v` multiplied by `s k`:  diag s · v. -/
def scaleRows {a b : Nat} (s : Mat a 1) (v : Mat a b) : Mat a b := fun i => s (ix2 (i 0) 0) * v i

theorem scaleCols_apply {a b : Nat} (x : Mat a b) (s : Mat b 1) (p : Fin a) (k : Fin b) :
    scaleCols x s (ix2 p k) = x (ix2 p k) * s (ix2 k 0) := rfl

theorem scaleRows_apply {a b : Nat} (s : Mat a 1) (v : Mat a b) (k : Fin a) (q : Fin b) :
    scaleRows s v (ix2 k q) = s (ix2 k 0) * v (ix2 k q) := rfl

/-- (a · diag s) · v = a · (diag s · v): term by term, associativity. -/
theorem mm_scaleCols {a k n : Nat} (x : Mat a k) (s : Mat k 1) (v : Mat k n) :
    mm (scaleCols x s) v = mm x (scaleRows s v) := by
  funext j
  obtain ⟨p, q, rfl⟩ : ∃ (p : Fin a) (q : Fin n), j = ix2 p q := ⟨j 0, j 1, eq_ix2 j⟩
  rw [mm_apply, mm_apply]
  exact Finset.sum_congr rfl fun c _ => by rw [scaleCols_apply, scaleRows_apply, mul_assoc]

/-- (a · diag s) · vᵀ = a · (v · diag s)ᵀ: term by term, associativity and commutativity. -/
theorem mm_scaleCols_tr {a k n : Nat} (x : Mat a k) (s : Mat k 1) (v : Mat n k) :
    mm (scaleCols x s) (tr v) = mm x (tr (scaleCols v s)) := by
  funext j
  obtain ⟨p, q, rfl⟩ : ∃ (p : Fin a) (q : Fin n), j = ix2 p q := ⟨j 0, j 1, eq_ix2 j⟩
  rw [mm_apply, mm_apply]
  exact Finset.sum_congr rfl fun c _ => by
    rw [scaleCols_apply, tr_apply, tr_apply, scaleCols_apply, mul_assoc, mul_comm (s (ix2 c 0))]

/-! ## The iteration -/

variable {B B' : Nat}

/-- One step: a gradient step towards `y = z · Ve`, then soft thresholding. -/
def step (ve : Mat 2048 1024) (y : Mat B 1024) (z : Mat B 2048) : Mat B 2048 :=
  fun j => shrink (z j + mm (fun u => y u - mm z ve u) (tr ve) j)

/-- Five steps from `y · Veᵀ`, plus a second term. -/
def core (ve : Mat 2048 1024) (y : Mat B 1024) (tail : Mat B 2048) : Mat B 2048 :=
  fun j => (step ve y)^[5] (mm y (tr ve)) j + tail j

/-! ## Row by row -/

/-- Row `p` of `a'` is row `i` of `a`. -/
def RowsAgree {n : Nat} (a' : Mat B' n) (a : Mat B n) (p : Fin B') (i : Fin B) : Prop :=
  ∀ k : Fin n, a' (ix2 p k) = a (ix2 i k)

namespace RowsAgree

variable {p : Fin B'} {i : Fin B}

/-- A product's row reads the left operand's row. -/
theorem mm {k n : Nat} {l' : Mat B' k} {l : Mat B k} (h : RowsAgree l' l p i) (r : Mat k n) :
    RowsAgree (Lib.PlainDot.mm l' r) (Lib.PlainDot.mm l r) p i :=
  fun j => mm_row l l' r i p j h

theorem step {ve : Mat 2048 1024} {y' : Mat B' 1024} {y : Mat B 1024} {z' : Mat B' 2048} {z : Mat B 2048}
    (hy : RowsAgree y' y p i) (hz : RowsAgree z' z p i) :
    RowsAgree (Recurrence.step ve y' z') (Recurrence.step ve y z) p i := by
  intro j
  have h1 : RowsAgree (fun u => y' u - Lib.PlainDot.mm z' ve u) (fun u => y u - Lib.PlainDot.mm z ve u) p i := fun k => by
    show y' (ix2 p k) - Lib.PlainDot.mm z' ve (ix2 p k) = y (ix2 i k) - Lib.PlainDot.mm z ve (ix2 i k)
    rw [hy k, hz.mm ve k]
  show shrink (z' (ix2 p j) + Lib.PlainDot.mm (fun u => y' u - Lib.PlainDot.mm z' ve u) (tr ve) (ix2 p j))
    = shrink (z (ix2 i j) + Lib.PlainDot.mm (fun u => y u - Lib.PlainDot.mm z ve u) (tr ve) (ix2 i j))
  rw [hz j, h1.mm (tr ve) j]

theorem iterate {ve : Mat 2048 1024} {y' : Mat B' 1024} {y : Mat B 1024} {z' : Mat B' 2048} {z : Mat B 2048}
    (hy : RowsAgree y' y p i) (hz : RowsAgree z' z p i) (n : Nat) :
    RowsAgree ((Recurrence.step ve y')^[n] z') ((Recurrence.step ve y)^[n] z) p i := by
  induction n with
  | zero => exact hz
  | succ n ih =>
    rw [Function.iterate_succ_apply', Function.iterate_succ_apply']
    exact hy.step ih

theorem core {ve : Mat 2048 1024} {y' : Mat B' 1024} {y : Mat B 1024} {t' : Mat B' 2048} {t : Mat B 2048}
    (hy : RowsAgree y' y p i) (ht : RowsAgree t' t p i) :
    RowsAgree (Recurrence.core ve y' t') (Recurrence.core ve y t) p i := by
  intro j
  show (Recurrence.step ve y')^[5] (Lib.PlainDot.mm y' (tr ve)) (ix2 p j) + t' (ix2 p j)
    = (Recurrence.step ve y)^[5] (Lib.PlainDot.mm y (tr ve)) (ix2 i j) + t (ix2 i j)
  rw [(hy.iterate (hy.mm (tr ve)) 5) j, ht j]

end RowsAgree

/-! ## The two arrangements -/

/-- Scales folded into the value tables first. -/
def folded (x : Mat B 2048) (ke ve : Mat 2048 1024) (k0 v0 : Mat 1024 1024) (s0 : Mat 1024 1)
    (k1 v1 : Mat 2048 1024) (s1 : Mat 1024 1) : Mat B 2048 :=
  core ve (mm (mm (mm x ke) (tr k0)) (scaleRows s0 v0)) (mm (mm x k1) (tr (scaleCols v1 s1)))

/-- Scales applied to the coefficients. -/
def scaled (x : Mat B 2048) (ke ve : Mat 2048 1024) (k0 v0 : Mat 1024 1024) (s0 : Mat 1024 1)
    (k1 v1 : Mat 2048 1024) (s1 : Mat 1024 1) : Mat B 2048 :=
  core ve (mm (scaleCols (mm (mm x ke) (tr k0)) s0) v0) (mm (scaleCols (mm x k1) s1) (tr v1))

theorem scaled_eq_folded (x : Mat B 2048) (ke ve : Mat 2048 1024) (k0 v0 : Mat 1024 1024) (s0 : Mat 1024 1)
    (k1 v1 : Mat 2048 1024) (s1 : Mat 1024 1) :
    scaled x ke ve k0 v0 s0 k1 v1 s1 = folded x ke ve k0 v0 s0 k1 v1 s1 := by
  unfold scaled folded
  rw [mm_scaleCols, mm_scaleCols_tr]

/-- The result on rows taken from `x` is those rows of the result on `x`. -/
theorem folded_rows {x' : Mat B' 2048} {x : Mat B 2048} {p : Fin B'} {i : Fin B} (hx : RowsAgree x' x p i)
    (ke ve : Mat 2048 1024) (k0 v0 : Mat 1024 1024) (s0 : Mat 1024 1) (k1 v1 : Mat 2048 1024) (s1 : Mat 1024 1) :
    RowsAgree (folded x' ke ve k0 v0 s0 k1 v1 s1) (folded x ke ve k0 v0 s0 k1 v1 s1) p i :=
  RowsAgree.core (((hx.mm ke).mm (tr k0)).mm _) ((hx.mm k1).mm _)

end Cert.Recurrence

end
-- ==== Proof.KernelBlock.lean ====
/-
  What the body leaves in the output block at one grid point, as a function of the blocks it loads.

  The body loads a block of 256 rows of `x` and six whole tables, stores once, and in between only computes: the stored
  value is the last payload of the loaded values, with the counted loop in it as a fold of its region. At the exact
  values every format change is the identity, a matrix product into a zero accumulator is the plain product (with the
  right operand transposed where its last axis is contracted), the loop's region does not read the trip number so its
  fold over five trips is the fivefold iterate, and the region is one `step` of Recurrence.lean with the sign spelled by
  comparisons. So the stored block is `core` of the loaded blocks.
-/
import proofs.«154523_j76647986364863_2_alg».proof.Proof.Gen.KernelIdeal.Value
import proofs.«154523_j76647986364863_2_alg».proof.Proof.LibTransposedDot
import proofs.«154523_j76647986364863_2_alg».proof.Proof.Recurrence

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem Idealize.ShloMosaic.ValueIdx Cert.Lib.PlainDot Cert.Lib.Bilinear Cert.Recurrence Cert.SoftThreshold

theorem zero_offsets : (![0, 0] : Fin 2 → Nat) = fun _ => 0 := funext fun a => by fin_cases a <;> rfl

/-! ## The stored value, at any instance -/

section AnyInstance

variable {F : FTy → Type} [FloatOps F]

/-- The output block after the body: the final payload of the loaded values, the loop as the fold of its region. -/
theorem out_eq (c : Dev nD) (i : grid0.Coords) (arg1 : Memref sig .tc .vmem S256x2048 .bf16) (harg1 : arg1.IsWhole) (arg2 : Memref sig .tc .vmem S2048x1024 .bf16) (harg2 : arg2.IsWhole) (arg3 : Memref sig .tc .vmem S2048x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S256x2048 .f32) (harg8 : arg8.IsWhole)
    (x0 : Vec F S256x2048 .bf16) (x1 : Vec F S2048x1024 .bf16) (x2 : Vec F S2048x1024 .bf16) (x3 : Vec F S1024x1024 .bf16) (x4 : Vec F S1024x1024 .bf16) (x5 : Vec F S2048x1024 .bf16) (x6 : Vec F S2048x1024 .bf16) :
    out0_A_7 c i arg1 harg1 arg2 harg2 arg3 harg3 arg4 harg4 arg5 harg5 arg6 harg6 arg7 harg7 arg8 harg8 x0 x1 x2 x3 x4 x5 x6
      = k0_pay6 x0 (Scf.fold (n := k0_t1_loop.trips) (fun _ z => k0_pay5 x0 x1 x3 x4 x2 z) (k0_pay4 x0 x1 x3 x4 x2)) x5 x6 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  rw [View.canon_unit_zero zero_offsets]
  simp only [View.readAt_eq_ld, harg1.read_unread, harg2.read_unread, harg3.read_unread, harg4.read_unread, harg5.read_unread, harg6.read_unread, harg7.read_unread, View.ld_unit_zero (S := S256x2048) zero_offsets,
    View.ld_unit_zero (S := S2048x1024) zero_offsets, View.ld_unit_zero (S := S1024x1024) zero_offsets]

end AnyInstance

/-! ## At the exact values -/

/-- A narrowing of the float format changes nothing. -/
theorem truncf_same {s : Shape} {φ ψ : FTy} (v : FVec Ideal s φ) (h : ψ.bits < φ.bits) :
    (truncf ψ v h : FVec Ideal s ψ) = v := rfl

/-- The four products of the body, by their dimension numbers. -/
theorem prod_x (l : FVec Ideal S256x2048 .bf16) (r : FVec Ideal S2048x1024 .bf16) :
    matmul (F := Ideal) dot_S256x2048_S2048x1024_S256x1024_1_0_0_1_n_n none l r (constant S256x1024 .f32 0x00000000#32)
      = mm l r := Lib.PlainDot.matmul_zero none l r

theorem prod_kt (l : FVec Ideal S256x1024 .bf16) (r : FVec Ideal S1024x1024 .bf16) :
    matmul (F := Ideal) dot_S256x1024_S1024x1024_S256x1024_1_1_0_0_n_n none l r (constant S256x1024 .f32 0x00000000#32)
      = mm l (tr r) := Lib.TransposedDot.matmul_zero none l r

theorem prod_v (l : FVec Ideal S256x1024 .bf16) (r : FVec Ideal S1024x1024 .bf16) :
    matmul (F := Ideal) dot_S256x1024_S1024x1024_S256x1024_1_0_0_1_n_n none l r (constant S256x1024 .f32 0x00000000#32)
      = mm l r := Lib.PlainDot.matmul_zero none l r

theorem prod_et (l : FVec Ideal S256x1024 .bf16) (r : FVec Ideal S2048x1024 .bf16) :
    matmul (F := Ideal) dot_S256x1024_S2048x1024_S256x2048_1_1_0_0_n_n none l r (constant S256x2048 .f32 0x00000000#32)
      = mm l (tr r) := Lib.TransposedDot.matmul_zero none l r

variable (x0 : Vec Ideal S256x2048 .bf16) (x1 x2 : Vec Ideal S2048x1024 .bf16) (x3 x4 : Vec Ideal S1024x1024 .bf16)
  (x5 x6 : Vec Ideal S2048x1024 .bf16)

/-- The coefficients of the 256 rows. -/
theorem pay2_eq : k0_pay2 (F := Ideal) x0 x1 x3 x4 = mm (mm (mm x0 x1) (tr x3)) x4 := by
  unfold k0_pay2 k0_pay1
  simp only [shapeCast_self, truncf_same]
  rw [prod_x, prod_kt, prod_v]

/-- The starting code. -/
theorem pay4_eq : k0_pay4 (F := Ideal) x0 x1 x3 x4 x2 = mm (mm (mm (mm x0 x1) (tr x3)) x4) (tr x2) := by
  unfold k0_pay4 k0_pay3
  simp only [shapeCast_self, truncf_same]
  rw [prod_et, pay2_eq]

/-- The loop's region is one step. -/
theorem pay5_eq (z : FVec Ideal S256x2048 .f32) :
    k0_pay5 (F := Ideal) x0 x1 x3 x4 x2 z = step x2 (mm (mm (mm x0 x1) (tr x3)) x4) z := by
  funext j
  unfold k0_pay5 k0_pay3
  simp only [shapeCast_self, truncf_same]
  rw [prod_x, prod_et, pay2_eq]
  exact shrink_by_comparisons _ j

/-- A fold whose function ignores the trip is an iterate. -/
theorem fold_const {σ : Type} {n : Nat} (f : σ → σ) (init : σ) : Scf.fold (n := n) (fun _ z => f z) init = f^[n] init := by
  rw [Scf.fold_eq]
  have key : ∀ (l : List (Fin n)) (a : σ), l.foldl (fun acc _ => f acc) a = f^[l.length] a := by
    intro l
    induction l with
    | nil => intro a; rfl
    | cons b l ih => intro a; rw [List.foldl_cons, ih, List.length_cons, Function.iterate_succ_apply]
  rw [key, List.length_finRange]

theorem trips_eq : k0_t1_loop.trips = 5 := by decide

/-- The stored block is `core` of the loaded blocks. -/
theorem stored_eq :
    k0_pay6 (F := Ideal) x0 (Scf.fold (n := k0_t1_loop.trips) (fun _ z => k0_pay5 x0 x1 x3 x4 x2 z) (k0_pay4 x0 x1 x3 x4 x2)) x5 x6
      = core x2 (mm (mm (mm x0 x1) (tr x3)) x4) (mm (mm x0 x5) (tr x6)) := by
  have hf : (fun (_ : Fin k0_t1_loop.trips) (z : FVec Ideal S256x2048 .f32) => k0_pay5 (F := Ideal) x0 x1 x3 x4 x2 z)
      = fun _ z => step x2 (mm (mm (mm x0 x1) (tr x3)) x4) z := by
    funext _ z; exact pay5_eq x0 x1 x2 x3 x4 z
  rw [hf, fold_const, trips_eq, pay4_eq]
  unfold k0_pay6 k0_pay1
  simp only [shapeCast_self, truncf_same]
  rw [prod_x, prod_et]
  rfl

end Cert.KernelIdeal.Block

end
-- ==== Proof.KernelValue.lean ====
/-
  From the blocks to the whole result array.

  The grid has two points. Point `t` loads rows `256·t … 256·t + 255` of `x` and all of each table, and writes rows
  `256·t … 256·t + 255` of the result. Before the region the host narrows every argument's float format (nothing, at
  the exact values) and multiplies each value table by its per-component scale: the first table row by row, the second
  — whose components run along its second axis — column by column, the column of scales recast as a row and broadcast
  down. So the blocks the body loads at point `t` are a block of rows of `x` and the two scaled and four plain tables,
  the block it stores is `folded` of those (KernelBlock.lean), and by row locality that is the same block of rows of
  `folded` of the whole arrays. The two blocks cover all 512 rows (row `r` is in block `r / 256`), so the array ends as
  `folded` of the arguments.
-/
import proofs.«154523_j76647986364863_2_alg».proof.Proof.KernelBlock
import Idealize.ShloMosaic.Lib.StableHlo.Run
import Idealize.ShloMosaic.Lib.KernelVsHost

set_option maxRecDepth 16384

noncomputable section

namespace Cert.KernelIdeal.Whole

open Cert.KernelIdeal Cert.KernelIdeal.Gen Idealize.ShloMosaic Idealize.ShloMosaic.TcCoe Idealize.ShloMosaic.Tactic
open Idealize.SL.Sem Idealize.ShloMosaic.ValueIdx Idealize.ShloMosaic.StableHlo
open Idealize.ShloMosaic.Pipeline (Dat)
open Cert.Lib.PlainDot Cert.Lib.Bilinear Cert.Recurrence

/-! ## Two small layout readings -/

/-- A column broadcast along a new second axis reads, at `(r, t)`, the column at `r`. -/
theorem broadcast_column {α : Type} {a b : Nat} (h : (⟨2, ![a, 1]⟩ : Shape).BroadcastsInDim ⟨2, ![a, b]⟩ ![0, 1])
    (y : (⟨2, ![a, 1]⟩ : Shape).Idx → α) (r : Fin a) (t : Fin b) :
    broadcastInDim ⟨2, ![a, b]⟩ ![0, 1] h y (ix2 r t) = y (ix2 r (0 : Fin 1)) := by
  refine broadcastInDim_apply ![0, 1] h y (ix2 r t) (ix2 r (0 : Fin 1)) ?_
  intro k
  fin_cases k
  · show r.val = if a = 1 then 0 else r.val
    split_ifs with ha
    · have := r.isLt; omega
    · rfl
  · show (0 : ℕ) = if (1 : ℕ) = 1 then 0 else _
    simp

/-- A column recast as a row reads, at `(0, r)`, the column at `r`: the two have the same row-major position. -/
theorem column_as_row {α : Type} {a : Nat} (h : (⟨2, ![a, 1]⟩ : Shape).ShapeCasts ⟨2, ![1, a]⟩)
    (y : (⟨2, ![a, 1]⟩ : Shape).Idx → α) (r : Fin a) :
    shapeCast ⟨2, ![1, a]⟩ y h (ix2 (0 : Fin 1) r) = y (ix2 r (0 : Fin 1)) :=
  shapeCast_apply y h (ix2 (0 : Fin 1) r) (ix2 r (0 : Fin 1)) (by
    rw [Shape.rowMajor_val_two, Shape.rowMajor_val_two]
    show r.val * 1 + 0 = 0 * a + r.val
    omega)

variable (m : (ℓ : Loc nD τ sig) → Buf (Elt Ideal) ℓ) (ρ : Dev nD → PrngReg)

/-! ## The arrays as the region finds them -/

theorem V_x (c : Dev nD) : (V m c main_v5 : S512x2048.Idx → EReal) = (m ((c : Thread nD τ).loc main_arg0)) := by
  dsimp only [Gen.V, Gen.hostOps0]; after_results; rfl

theorem V_ke (c : Dev nD) : (V m c main_v6 : S2048x1024.Idx → EReal) = (m ((c : Thread nD τ).loc main_arg1)) := by
  dsimp only [Gen.V, Gen.hostOps0]; after_results; rfl

theorem V_ve (c : Dev nD) : (V m c main_v7 : S2048x1024.Idx → EReal) = (m ((c : Thread nD τ).loc main_arg2)) := by
  dsimp only [Gen.V, Gen.hostOps0]; after_results; rfl

theorem V_k0 (c : Dev nD) : (V m c main_v8 : S1024x1024.Idx → EReal) = (m ((c : Thread nD τ).loc main_arg3)) := by
  dsimp only [Gen.V, Gen.hostOps0]; after_results; rfl

theorem V_k1 (c : Dev nD) : (V m c main_v10 : S2048x1024.Idx → EReal) = (m ((c : Thread nD τ).loc main_arg6)) := by
  dsimp only [Gen.V, Gen.hostOps0]; after_results; rfl

/-- The first value table, each row multiplied by its scale. -/
theorem V_v0 (c : Dev nD) : (V m c main_v9 : S1024x1024.Idx → EReal) = scaleRows (m ((c : Thread nD τ).loc main_arg5)) (m ((c : Thread nD τ).loc main_arg4)) := by
  dsimp only [Gen.V, Gen.hostOps0]; after_results
  funext j
  obtain ⟨r, d, rfl⟩ : ∃ (r : Fin 1024) (d : Fin 1024), j = ix2 r d := ⟨j 0, j 1, eq_ix2 j⟩
  exact congrArg (fun z : EReal => z * (m ((c : Thread nD τ).loc main_arg4)) (ix2 r d)) (broadcast_column _ _ r d)

/-- The second value table, each column multiplied by its scale. -/
theorem V_v1 (c : Dev nD) : (V m c main_v11 : S2048x1024.Idx → EReal) = scaleCols (m ((c : Thread nD τ).loc main_arg7)) (m ((c : Thread nD τ).loc main_arg8)) := by
  dsimp only [Gen.V, Gen.hostOps0]; after_results
  funext j
  obtain ⟨u, r, rfl⟩ : ∃ (u : Fin 2048) (r : Fin 1024), j = ix2 u r := ⟨j 0, j 1, eq_ix2 j⟩
  refine congrArg (fun z : EReal => @HMul.hMul EReal EReal EReal _ ((m ((c : Thread nD τ).loc main_arg7)) (ix2 u r)) z) ?_
  refine (broadcastInDim_oneRow_apply _ _ u r).trans ?_
  exact column_as_row _ _ r

/-! ## The blocks at a point -/

/-- The printed index maps over the two points: the row block of `x` and of the result is one and the same and at
    most 1; every table's block is the whole table. -/
theorem idx_facts : ∀ t : Fin cfg0.N,
    (win0_0.index t (0 : Fin 2) = win0_7.index t (0 : Fin 2) ∧ win0_0.index t (1 : Fin 2) = 0
      ∧ win0_7.index t (1 : Fin 2) = 0 ∧ win0_7.index t (0 : Fin 2) ≤ 1)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Each of the two row blocks is some point's. -/
theorem idx_onto : ∀ q : Fin 2, ∃ t : Fin cfg0.N, win0_7.index t (0 : Fin 2) = q.val :=
  (by decide +kernel : ∀ q : Fin 2, ∃ t : Fin grid0.N, win0_7.index t (0 : Fin 2) = q.val)

theorem blk_ke (c : Dev nD) (t : Fin cfg0.N) : (iblk m c 1 t : S2048x1024.Idx → EReal) = (m ((c : Thread nD τ).loc main_arg1)) := by
  have e0 : win0_1.index t (0 : Fin 2) = 0 := (idx_facts t).2.1.1
  have e1 : win0_1.index t (1 : Fin 2) = 0 := (idx_facts t).2.1.2
  funext y
  have h : ((cfg0.win 1).blk t).view.emb y = y := by
    funext a; apply Fin.ext
    match a with
    | ⟨0, _⟩ => show win0_1.index t (0 : Fin 2) * 2048 + 1 * (y 0).val = (y 0).val; omega
    | ⟨1, _⟩ => show win0_1.index t (1 : Fin 2) * 1024 + 1 * (y 1).val = (y 1).val; omega
  show V m c main_v6 (((cfg0.win 1).blk t).view.emb y) = _
  rw [h, V_ke]

theorem blk_ve (c : Dev nD) (t : Fin cfg0.N) : (iblk m c 2 t : S2048x1024.Idx → EReal) = (m ((c : Thread nD τ).loc main_arg2)) := by
  have e0 : win0_2.index t (0 : Fin 2) = 0 := (idx_facts t).2.2.1.1
  have e1 : win0_2.index t (1 : Fin 2) = 0 := (idx_facts t).2.2.1.2
  funext y
  have h : ((cfg0.win 2).blk t).view.emb y = y := by
    funext a; apply Fin.ext
    match a with
    | ⟨0, _⟩ => show win0_2.index t (0 : Fin 2) * 2048 + 1 * (y 0).val = (y 0).val; omega
    | ⟨1, _⟩ => show win0_2.index t (1 : Fin 2) * 1024 + 1 * (y 1).val = (y 1).val; omega
  show V m c main_v7 (((cfg0.win 2).blk t).view.emb y) = _
  rw [h, V_ve]

theorem blk_k0 (c : Dev nD) (t : Fin cfg0.N) : (iblk m c 3 t : S1024x1024.Idx → EReal) = (m ((c : Thread nD τ).loc main_arg3)) := by
  have e0 : win0_3.index t (0 : Fin 2) = 0 := (idx_facts t).2.2.2.1.1
  have e1 : win0_3.index t (1 : Fin 2) = 0 := (idx_facts t).2.2.2.1.2
  funext y
  have h : ((cfg0.win 3).blk t).view.emb y = y := by
    funext a; apply Fin.ext
    match a with
    | ⟨0, _⟩ => show win0_3.index t (0 : Fin 2) * 1024 + 1 * (y 0).val = (y 0).val; omega
    | ⟨1, _⟩ => show win0_3.index t (1 : Fin 2) * 1024 + 1 * (y 1).val = (y 1).val; omega
  show V m c main_v8 (((cfg0.win 3).blk t).view.emb y) = _
  rw [h, V_k0]

theorem blk_v0 (c : Dev nD) (t : Fin cfg0.N) : (iblk m c 4 t : S1024x1024.Idx → EReal) = scaleRows (m ((c : Thread nD τ).loc main_arg5)) (m ((c : Thread nD τ).loc main_arg4)) := by
  have e0 : win0_4.index t (0 : Fin 2) = 0 := (idx_facts t).2.2.2.2.1.1
  have e1 : win0_4.index t (1 : Fin 2) = 0 := (idx_facts t).2.2.2.2.1.2
  funext y
  have h : ((cfg0.win 4).blk t).view.emb y = y := by
    funext a; apply Fin.ext
    match a with
    | ⟨0, _⟩ => show win0_4.index t (0 : Fin 2) * 1024 + 1 * (y 0).val = (y 0).val; omega
    | ⟨1, _⟩ => show win0_4.index t (1 : Fin 2) * 1024 + 1 * (y 1).val = (y 1).val; omega
  show V m c main_v9 (((cfg0.win 4).blk t).view.emb y) = _
  rw [h, V_v0]

theorem blk_k1 (c : Dev nD) (t : Fin cfg0.N) : (iblk m c 5 t : S2048x1024.Idx → EReal) = (m ((c : Thread nD τ).loc main_arg6)) := by
  have e0 : win0_5.index t (0 : Fin 2) = 0 := (idx_facts t).2.2.2.2.2.1.1
  have e1 : win0_5.index t (1 : Fin 2) = 0 := (idx_facts t).2.2.2.2.2.1.2
  funext y
  have h : ((cfg0.win 5).blk t).view.emb y = y := by
    funext a; apply Fin.ext
    match a with
    | ⟨0, _⟩ => show win0_5.index t (0 : Fin 2) * 2048 + 1 * (y 0).val = (y 0).val; omega
    | ⟨1, _⟩ => show win0_5.index t (1 : Fin 2) * 1024 + 1 * (y 1).val = (y 1).val; omega
  show V m c main_v10 (((cfg0.win 5).blk t).view.emb y) = _
  rw [h, V_k1]

theorem blk_v1 (c : Dev nD) (t : Fin cfg0.N) : (iblk m c 6 t : S2048x1024.Idx → EReal) = scaleCols (m ((c : Thread nD τ).loc main_arg7)) (m ((c : Thread nD τ).loc main_arg8)) := by
  have e0 : win0_6.index t (0 : Fin 2) = 0 := (idx_facts t).2.2.2.2.2.2.1
  have e1 : win0_6.index t (1 : Fin 2) = 0 := (idx_facts t).2.2.2.2.2.2.2
  funext y
  have h : ((cfg0.win 6).blk t).view.emb y = y := by
    funext a; apply Fin.ext
    match a with
    | ⟨0, _⟩ => show win0_6.index t (0 : Fin 2) * 2048 + 1 * (y 0).val = (y 0).val; omega
    | ⟨1, _⟩ => show win0_6.index t (1 : Fin 2) * 1024 + 1 * (y 1).val = (y 1).val; omega
  show V m c main_v11 (((cfg0.win 6).blk t).view.emb y) = _
  rw [h, V_v1]

/-- The row of the whole arrays that row `p` of point `t`'s blocks is. -/
def rowAt (t : Fin cfg0.N) (p : Fin 256) : Fin 512 :=
  ⟨win0_7.index t (0 : Fin 2) * 256 + p.val, by have := (idx_facts t).1.2.2.2; have := p.isLt; omega⟩

/-- Row `p` of the block of `x` at point `t` is row `rowAt t p` of `x`. -/
theorem blk_x_rows (c : Dev nD) (t : Fin cfg0.N) (p : Fin 256) :
    RowsAgree (iblk m c 0 t : Mat 256 2048) ((m ((c : Thread nD τ).loc main_arg0)) : Mat 512 2048) p (rowAt t p) := by
  obtain ⟨⟨e0, e1, -, -⟩, -⟩ := idx_facts t
  intro k
  show V m c main_v5 (((cfg0.win 0).blk t).view.emb (ix2 p k)) = (m ((c : Thread nD τ).loc main_arg0)) (ix2 (rowAt t p) k)
  rw [V_x]
  refine congrArg _ (funext fun a => Fin.ext ?_)
  match a with
  | ⟨0, _⟩ => show win0_0.index t (0 : Fin 2) * 256 + 1 * p.val = win0_7.index t (0 : Fin 2) * 256 + p.val; omega
  | ⟨1, _⟩ => show win0_0.index t (1 : Fin 2) * 2048 + 1 * k.val = k.val; omega

/-- Entry `(p, q)` of the result's block at point `t` is entry `(rowAt t p, q)` of the result. -/
theorem out_emb (t : Fin cfg0.N) (p : Fin 256) (q : Fin 2048) :
    ((cfg0.win 7).blk t).view.emb (ix2 p q) = ix2 (rowAt t p) q := by
  obtain ⟨⟨-, -, e1, -⟩, -⟩ := idx_facts t
  funext a; apply Fin.ext
  match a with
  | ⟨0, _⟩ => show win0_7.index t (0 : Fin 2) * 256 + 1 * p.val = win0_7.index t (0 : Fin 2) * 256 + p.val; omega
  | ⟨1, _⟩ => show win0_7.index t (1 : Fin 2) * 2048 + 1 * q.val = q.val; omega

/-! ## The result array -/

/-- The result on all 512 rows, as a function of the argument arrays. -/
def result (c : Dev nD) : S512x2048.Idx → EReal :=
  folded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What point `t` writes back is block `t` of `result`. -/
theorem flushed_eq (c : Dev nD) (t : Fin cfg0.N) :
    (dats m 0 c).flushed 7 t = ((cfg0.win 7).blk t).view.read (Elt Ideal) (result m c) := by
  have e1 := Block.out_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t)
  have e2 := Block.stored_eq (iblk m c 0 t) (iblk m c 1 t) (iblk m c 2 t) (iblk m c 3 t) (iblk m c 4 t) (iblk m c 5 t) (iblk m c 6 t)
  rw [Value.flushed7_A, e1, e2, blk_ke, blk_ve, blk_k0, blk_v0, blk_k1, blk_v1]
  funext y
  obtain ⟨p, q, rfl⟩ : ∃ (p : Fin 256) (q : Fin 2048), y = ix2 p q := ⟨y 0, y 1, eq_ix2 y⟩
  show folded (iblk m c 0 t : Mat 256 2048) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 p q)
    = result m c (((cfg0.win 7).blk t).view.emb (ix2 p q))
  rw [out_emb]
  exact folded_rows (blk_x_rows m c t p) _ _ _ _ _ _ _ _ q

/-- The two blocks cover the array, so it ends as `result`. -/
theorem final (c : Dev nD) : (dats m 0 c).arrAt 7 cfg0.N = result m c :=
  (dats m 0 c).arrAt_eq_of_cover 7 (result m c) (fun t _ => flushed_eq m c t) fun i => by
    have h0 : (i 0).val < 512 := (i 0).isLt
    have h1 : (i 1).val < 2048 := (i 1).isLt
    obtain ⟨t, ht⟩ := idx_onto ⟨(i 0).val / 256, by omega⟩
    have q0 : win0_7.index t (0 : Fin 2) = (i 0).val / 256 := ht
    obtain ⟨⟨-, -, e1, -⟩, -⟩ := idx_facts t
    refine ⟨t, flush0_7 t, ?_⟩
    show i ∈ ((View.whole main_v12).slice (win0_7.rect t)).set
    rw [View.set_slice_whole, Rect.mem_set_unit]
    intro a
    match a with
    | ⟨0, _⟩ => show win0_7.index t (0 : Fin 2) * 256 ≤ (i 0).val ∧ (i 0).val < win0_7.index t (0 : Fin 2) * 256 + 256; omega
    | ⟨1, _⟩ => show win0_7.index t (1 : Fin 2) * 2048 ≤ (i 1).val ∧ (i 1).val < win0_7.index t (1 : Fin 2) * 2048 + 2048; omega

/-- The kernel's run: the result array at `result`, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Value.run_blocks m ρ)

end Cert.KernelIdeal.Whole

end
-- ==== Proof.ReferenceValue.lean ====
/-
  The reference's result, read as one function of its arguments.

  The reference is a straight line of host operations. Its three kinds of product are plain matrix products; a table
  is transposed before it is multiplied from the right; a per-component scale, stored as a column, is transposed to a
  row and broadcast down the rows before it multiplies the coefficients, which is `scaleCols`; and each of its five
  unrolled iterations is  z + (y − z·Ve)·Veᵀ  followed by  sign · max(|·| − 1, 0), which is one `step`. Stage by
  stage the composed term of the run is therefore `scaled` of Recurrence.lean.
-/
import proofs.«154523_j76647986364863_2_alg».proof.Proof.Gen.ReferenceIdeal.Run
import proofs.«154523_j76647986364863_2_alg».proof.Proof.Recurrence
import Idealize.ShloMosaic.Lib.KernelVsHost
import Idealize.ShloMosaic.Lib.ValueLayout

set_option maxRecDepth 8192

noncomputable section

namespace Cert.ReferenceIdeal.Result

open Cert.ReferenceIdeal Cert.ReferenceIdeal.Gen Cert.ReferenceIdeal.Value Idealize.ShloMosaic Idealize.ShloMosaic.TcCoe
open Idealize.SL.Sem Idealize.ShloMosaic.StableHlo Idealize.ShloMosaic.ValueIdx
open Cert.Lib.PlainDot Cert.Lib.Bilinear Cert.Recurrence Cert.SoftThreshold

/-! ## The host's spellings -/

theorem prod_x (l : FVec Ideal S512x2048 .f32) (r : FVec Ideal S2048x1024 .f32) :
    Host.dotGeneral (F := Ideal) dot_S512x2048_S2048x1024_S512x1024_1_0_0_1_n_n none l r = mm l r :=
  Lib.PlainDot.dotGeneral none l r

theorem prod_k (l : FVec Ideal S512x1024 .f32) (r : FVec Ideal S1024x1024 .f32) :
    Host.dotGeneral (F := Ideal) dot_S512x1024_S1024x1024_S512x1024_1_0_0_1_n_n none l r = mm l r :=
  Lib.PlainDot.dotGeneral none l r

theorem prod_e (l : FVec Ideal S512x1024 .f32) (r : FVec Ideal S1024x2048 .f32) :
    Host.dotGeneral (F := Ideal) dot_S512x1024_S1024x2048_S512x2048_1_0_0_1_n_n none l r = mm l r :=
  Lib.PlainDot.dotGeneral none l r

/-- A column of scales, transposed to a row and broadcast down the rows, multiplies column `k` by `s k`. -/
theorem scale_eq (a : FVec Ideal S512x1024 .f32) (s : FVec Ideal S1024x1 .f32)
    (h1 : S1x1024.BroadcastsInDim S512x1024 ![0, 1]) (h2 : S1024x1.Transposes [1, 0] S1x1024) :
    mulf a (broadcastInDim S512x1024 ![0, 1] h1 (transpose S1x1024 [1, 0] s h2)) = scaleCols a s := by
  funext j
  obtain ⟨p, q, rfl⟩ : ∃ (p : Fin 512) (q : Fin 1024), j = ix2 p q := ⟨j 0, j 1, eq_ix2 j⟩
  show a (ix2 p q) * broadcastInDim S512x1024 ![0, 1] h1 (transpose S1x1024 [1, 0] s h2) (ix2 p q)
    = a (ix2 p q) * s (ix2 q 0)
  rw [broadcastInDim_oneRow_apply, transpose_ix2_apply]

/-- One unrolled iteration. -/
theorem host_step (y : FVec Ideal S512x1024 .f32) (ve : FVec Ideal S2048x1024 .f32) (z : FVec Ideal S512x2048 .f32)
    (h : S2048x1024.Transposes [1, 0] S1024x2048) (hb : S_.BroadcastsInDim S512x2048 ![]) :
    mulf (Host.sign (addf z (Host.dotGeneral (F := Ideal) dot_S512x1024_S1024x2048_S512x2048_1_0_0_1_n_n none
          (subf y (Host.dotGeneral (F := Ideal) dot_S512x2048_S2048x1024_S512x1024_1_0_0_1_n_n none z ve))
          (transpose S1024x2048 [1, 0] ve h))))
        (maximumf (subf (Host.absf (addf z (Host.dotGeneral (F := Ideal) dot_S512x1024_S1024x2048_S512x2048_1_0_0_1_n_n none
          (subf y (Host.dotGeneral (F := Ideal) dot_S512x2048_S2048x1024_S512x1024_1_0_0_1_n_n none z ve))
          (transpose S1024x2048 [1, 0] ve h))))
            (broadcastInDim S512x2048 ![] hb (constant (F := Ideal) S_ .f32 0x3F800000#32)))
          (broadcastInDim S512x2048 ![] hb (constant (F := Ideal) S_ .f32 0x00000000#32)))
      = step ve y z := by
  rw [prod_x, transpose_eq_tr, prod_e]
  exact funext fun j => shrink_by_sign hb _ j

/-! ## The run's stages -/

variable (V0 : Valuation τ sig (Elt Ideal))

/-- The coefficients. -/
theorem v6_eq : res_main_v6 V0
    = mm (scaleCols (mm (mm (V0 (Proc.devRef .tc main_arg0)) (V0 (Proc.devRef .tc main_arg1))) (tr (V0 (Proc.devRef .tc main_arg3)))) (V0 (Proc.devRef .tc main_arg5))) (V0 (Proc.devRef .tc main_arg4)) := by
  unfold res_main_v6
  rw [prod_x, transpose_eq_tr, prod_k, scale_eq, prod_k]

/-- The starting code. -/
theorem v8_eq : res_main_v8 V0 = mm (res_main_v6 V0) (tr (V0 (Proc.devRef .tc main_arg2))) := by
  unfold res_main_v8
  rw [transpose_eq_tr, prod_e]

theorem v20_eq : res_main_v20 V0 = step (V0 (Proc.devRef .tc main_arg2)) (res_main_v6 V0) (res_main_v8 V0) := by
  unfold res_main_v20 res_main_v13; exact host_step _ _ _ _ _

theorem v32_eq : res_main_v32 V0 = step (V0 (Proc.devRef .tc main_arg2)) (res_main_v6 V0) (res_main_v20 V0) := by
  unfold res_main_v32 res_main_v25; exact host_step _ _ _ _ _

theorem v44_eq : res_main_v44 V0 = step (V0 (Proc.devRef .tc main_arg2)) (res_main_v6 V0) (res_main_v32 V0) := by
  unfold res_main_v44 res_main_v37; exact host_step _ _ _ _ _

theorem v56_eq : res_main_v56 V0 = step (V0 (Proc.devRef .tc main_arg2)) (res_main_v6 V0) (res_main_v44 V0) := by
  unfold res_main_v56 res_main_v49; exact host_step _ _ _ _ _

/-- The run's composed term is `scaled` of the arguments. -/
theorem result_eq :
    (addf (mulf (Host.sign (res_main_v61 V0)) (maximumf (subf (Host.absf (res_main_v61 V0)) (broadcastInDim S512x2048 ![] bcast_S_S512x2048 (constant S_ .f32 0x3F800000#32))) (broadcastInDim S512x2048 ![] bcast_S_S512x2048 (constant S_ .f32 0x00000000#32)))) (Host.dotGeneral (F := Ideal) (φ₁ := .f32) (φ₂ := .f32) dot_S512x1024_S1024x2048_S512x2048_1_0_0_1_n_n none (mulf (Host.dotGeneral (F := Ideal) (φ₁ := .f32) (φ₂ := .f32) dot_S512x2048_S2048x1024_S512x1024_1_0_0_1_n_n none (V0 (Proc.devRef .tc main_arg0)) (V0 (Proc.devRef .tc main_arg6))) (broadcastInDim S512x1024 ![0, 1] bcast_S1x1024_S512x1024_0_1 (transpose S1x1024 [1, 0] (V0 (Proc.devRef .tc main_arg8)) transposes_S1024x1_S1x1024_1_0))) (transpose S1024x2048 [1, 0] (V0 (Proc.devRef .tc main_arg7)) transposes_S2048x1024_S1024x2048_1_0)) : FVec Ideal S512x2048 .f32)
      = scaled (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold res_main_v61
  rw [host_step, v56_eq, v44_eq, v32_eq, v20_eq, v8_eq, v6_eq, prod_x, scale_eq, transpose_eq_tr, prod_e]
  rfl

end Cert.ReferenceIdeal.Result

end
-- ==== Proof.lean ====
/-
  The kernel and its reference compute one function of their nine arguments on the extended reals.

  Both encode each of 512 rows of `x` to coefficients `y` through three matrix products, improve a code
  `z` five times by  z ↦ sign(p) · max(|p| − 1, 0)  with  p = z + (y − z·Ve)·Veᵀ  from  z₀ = y·Veᵀ,  and add a second
  term computed from `x` through two more products (Proof/Recurrence.lean, `core`). They differ in three ways, none
  of which changes a value:
  • the kernel works on two blocks of 256 rows; every operation acts row by row, so a block of the result is the
    result of the block (Proof/Recurrence.lean `folded_rows`, Proof/KernelValue.lean);
  • the kernel multiplies each value table by its per-component scale beforehand where the reference multiplies the
    coefficients: term by term  a·(s·v) = (a·s)·v,  by associativity and commutativity of the product alone
    (`scaled_eq_folded`) — no finiteness of the inputs is used anywhere;
  • the kernel spells the sign by comparisons, ±1 by `p < 0` where `|p| > 0` and `p` itself elsewhere, which is the
    three-valued sign at every extended real, the infinities and zero included (Proof/SoftThreshold.lean). The one
    rewrite the idealization made, reading "negative" off the value instead of the sign bit, is stated by `preserves`.
  Format changes are the identity at the exact values, and a product into a zero accumulator is the plain product.
-/
import proofs.«154523_j76647986364863_2_alg».proof.Defs
import proofs.«154523_j76647986364863_2_alg».proof.Proof.Gen.Kernel
import proofs.«154523_j76647986364863_2_alg».proof.Proof.Gen.KernelIdeal
import proofs.«154523_j76647986364863_2_alg».proof.Proof.Gen.ReferenceIdeal
import proofs.«154523_j76647986364863_2_alg».proof.Proof.Gen.Pre_finite_inputs
import proofs.«154523_j76647986364863_2_alg».proof.Proof.Frames
import proofs.«154523_j76647986364863_2_alg».proof.Proof.KernelValue
import proofs.«154523_j76647986364863_2_alg».proof.Proof.ReferenceValue
import Idealize.ShloMosaic.Adequacy
import Idealize.ShloMosaic.Init

noncomputable section

namespace Cert.Proof

open Idealize.ShloMosaic Idealize.ShloMosaic.TcCoe Idealize.SL.Sem

/-- The idealization's one rewrite: "1.0 carrying the sign bit" became ±1 by the comparison with zero. -/
theorem preserves : Cert.preserves_Kernel_KernelIdeal :=
  IdealRules.sign_bit.statement Cert.KernelIdeal.S256x2048 .f32

/-- From memories agreeing on the arguments the kernel's result array ends at `folded` of its arguments and the
    reference's at `scaled` of the same arguments: one function. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Result.result_eq (StableHlo.launchContents m' c)).trans ?_
  obtain ⟨h0, h1, h2, h3, h4, h5, h6, h7, h8⟩ := hagree c
  beta_reduce
  unfold Cert.KernelIdeal.Whole.result
  rw [← h0, ← h1, ← h2, ← h3, ← h4, ← h5, ← h6, ← h7, ← h8]
  exact Cert.Recurrence.scaled_eq_folded _ _ _ _ _ _ _ _ _

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, preserves, algebraic⟩

end Cert.Proof

end
